-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_
  bcast_S_S16x4096 : S_.BroadcastsInDim S16x4096 (![] : Fin 0 → Fin S16x4096.rank)
  reducesTo_S16x4096_S_d0_1 : S16x4096.ReducesTo [0, 1] S_
  bcast_S_S11008x16 : S_.BroadcastsInDim S11008x16 (![] : Fin 0 → Fin S11008x16.rank)
  reducesTo_S11008x16_S_d0_1 : S11008x16.ReducesTo [0, 1] S_

variable [Facts]

def fn_part1 {F : FTy → Type} [FloatOps F] (main_v13 : IVec S_ 1) (main_v16 : IVec S11008x16 1) : IVec S_ 1 :=
  let main_c_5 : IVec S_ 1 := constantI S_ 1 1#1
  let main_v17 : IVec S_ 1 := (fun x v => Host.reduce IntOp.andi x v reducesTo_S11008x16_S_d0_1 h_S_) main_v16 main_c_5
  let main_v18 : IVec S_ 1 := andi main_v13 main_v17
  main_v18

def fn {F : FTy → Type} [FloatOps F] (main_arg0 : FVec F S4x2048x4096 .f32) (main_arg1 : IVec S11008x4096 32) (main_arg2 : FVec F S11008 .f32) (main_arg3 : FVec F S16x4096 .f32) (main_arg4 : FVec F S11008x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S11008x16 .f32 := Host.absf main_arg4
  let main_cst_4 : FVec F S_ .f32 := constant S_ .f32 0x7F800000#32
  let main_v15 : FVec F S11008x16 .f32 := broadcastInDim S11008x16 ![] bcast_S_S11008x16 main_cst_4
  let main_v16 : IVec S11008x16 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S8192x4096 : Shape := ⟨2, ![8192, 4096]⟩
abbrev S_ : Shape := ⟨0, ![]⟩
abbrev S11264x4096 : Shape := ⟨2, ![11264, 4096]⟩
abbrev S11264 : Shape := ⟨1, ![11264]⟩
abbrev S1x11264 : Shape := ⟨2, ![1, 11264]⟩
abbrev S11264x16 : Shape := ⟨2, ![11264, 16]⟩
abbrev S4096x16 : Shape := ⟨2, ![4096, 16]⟩
abbrev S8192x16 : Shape := ⟨2, ![8192, 16]⟩
abbrev S8192x11264 : Shape := ⟨2, ![8192, 11264]⟩
abbrev S1024x512 : Shape := ⟨2, ![1024, 512]⟩
abbrev S1x1024 : Shape := ⟨2, ![1, 1024]⟩
abbrev S1024x16 : Shape := ⟨2, ![1024, 16]⟩
abbrev S1024x1024 : Shape := ⟨2, ![1024, 1024]⟩
abbrev S512x1024 : Shape := ⟨2, ![512, 1024]⟩
abbrev S16x1024 : Shape := ⟨2, ![16, 1024]⟩
abbrev S8192x11008 : Shape := ⟨2, ![8192, 11008]⟩
abbrev S4x2048x11008 : Shape := ⟨3, ![4, 2048, 11008]⟩

abbrev nBuf : Space → Nat
  | .hbm => 25
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S16x4096, .f32⟩
  | .hbm, ⟨4, _⟩ => ⟨S11008x16, .f32⟩
  | .hbm, ⟨5, _⟩ => ⟨S8192x4096, .f32⟩
  | .hbm, ⟨6, _⟩ => ⟨S8192x4096, .bf16⟩
  | .hbm, ⟨7, _⟩ => ⟨S11008x4096, .bf16⟩
  | .hbm, ⟨8, _⟩ => ⟨S_, .i32⟩
  | .hbm, ⟨9, _⟩ => ⟨S_, .bf16⟩
  | .hbm, ⟨10, _⟩ => ⟨S11264x4096, .bf16⟩
  | .hbm, ⟨11, _⟩ => ⟨S_, .i32⟩
  | .hbm, ⟨12, _⟩ => ⟨S_, .f32⟩
  | .hbm, ⟨13, _⟩ => ⟨S11264, .f32⟩
  | .hbm, ⟨14, _⟩ => ⟨S1x11264, .f32⟩
  | .hbm, ⟨15, _⟩ => ⟨S11008x16, .bf16⟩
  | .hbm, ⟨16, _⟩ => ⟨S_, .i32⟩
  | .hbm, ⟨17, _⟩ => ⟨S_, .bf16⟩
  | .hbm, ⟨18, _⟩ => ⟨S11264x16, .bf16⟩
  | .hbm, ⟨19, _⟩ => ⟨S16x4096, .bf16⟩
  | .hbm, ⟨20, _⟩ => ⟨S4096x16, .bf16⟩
  | .hbm, ⟨21, _⟩ => ⟨S8192x16, .f32⟩
  | .hbm, ⟨22, _⟩ => ⟨S8192x11264, .f32⟩
  | .hbm, ⟨23, _⟩ => ⟨S8192x11008, .f32⟩
  | .hbm, ⟨24, _⟩ => ⟨S4x2048x11008, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1024x16, .f32⟩
  | .local _ .vmem, ⟨7, _⟩ => ⟨S1024x16, .f32⟩
  | .local _ .vmem, ⟨8, _⟩ => ⟨S1024x16, .bf16⟩
  | .local _ .vmem, ⟨9, _⟩ => ⟨S1024x16, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 11, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  bitsLt_bf16_f32 : FTy.bits .bf16 < FTy.bits .f32
  pads_S11008x4096_S11264x4096_02560_000 : S11008x4096.Pads (![0, 0] : Fin 2 → Nat) ![256, 0] ![0, 0] S11264x4096
  h_S_ : 0 < S_.numel
  pads_S11008_S11264_02560 : S11008.Pads (![0] : Fin 1 → Nat) ![256] ![0] S11264
  shapeCasts_S11264_S1x11264 : S11264.ShapeCasts S1x11264
  pads_S11008x16_S11264x16_02560_000 : S11008x16.Pads (![0, 0] : Fin 2 → Nat) ![256, 0] ![0, 0] S11264x16
  transposes_S16x4096_S4096x16_1_0 : S16x4096.Transposes [1, 0] S4096x16
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  transposes_S1024x16_p1_0_S16x1024 : S1024x16.Transposes [1, 0] S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S8192x11264_S8192x11008_0_0 : S8192x11264.Slices ![0, 0] S8192x11008
  shapeCasts_S8192x11008_S4x2048x11008 : S8192x11008.ShapeCasts S4x2048x11008
  dot_S8192x4096_S4096x16_S8192x16_1_0_0_1_n_n_wf : DotDims.WF S8192x4096 S4096x16 S8192x16 [1] [0] [0] [1] [] []
  dot_S1024x512_S512x1024_S1024x1024_1_0_0_1_n_n_wf : DotDims.WF S1024x512 S512x1024 S1024x1024 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S11264x4096.size a
  hwx0_1 : ∀ i : grid0.Coords, EltTy.bits .bf16 = 32 ∨ (Rect.block (s := S11264x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x11264.size a
  hwx0_2 : ∀ i : grid0.Coords, EltTy.bits .f32 = 32 ∨ (Rect.block (s := S1x11264) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S8192x16.size a
  hwx0_3 : ∀ i : grid0.Coords, EltTy.bits .f32 = 32 ∨ (Rect.block (s := S8192x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S11264x16.size a
  hwx0_4 : ∀ i : grid0.Coords, EltTy.bits .bf16 = 32 ∨ (Rect.block (s := S11264x16) S1024x16.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x11264.size a
  hwx0_5 : ∀ i : grid0.Coords, EltTy.bits .f32 = 32 ∨ (Rect.block (s := S8192x11264) S1024x1024.size (cc0_transform_5 i) (hinb0_5 i)).WholeWords (EltTy.packing .f32)

variable [Facts₀]

def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S4x2048x11008 : Shape := ⟨3, ![4, 2048, 11008]⟩
abbrev S1x1x11008 : Shape := ⟨3, ![1, 1, 11008]⟩
abbrev S4x2048x16 : Shape := ⟨3, ![4, 2048, 16]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S16x4096, .f32⟩
  | .hbm, ⟨4, _⟩ => ⟨S11008x16, .f32⟩
  | .hbm, ⟨5, _⟩ => ⟨S11008x4096, .f32⟩
  | .hbm, ⟨6, _⟩ => ⟨S4x2048x11008, .f32⟩
  | .hbm, ⟨7, _⟩ => ⟨S1x1x11008, .f32⟩
  | .hbm, ⟨8, _⟩ => ⟨S4x2048x11008, .f32⟩
  | .hbm, ⟨9, _⟩ => ⟨S4x2048x11008, .f32⟩
  | .hbm, ⟨10, _⟩ => ⟨S4x2048x16, .f32⟩
  | .hbm, ⟨11, _⟩ => ⟨S4x2048x11008, .f32⟩
  | .hbm, ⟨12, _⟩ => ⟨S_, .f32⟩
  | .hbm, ⟨13, _⟩ => ⟨S4x2048x11008, .f32⟩
  | .hbm, ⟨14, _⟩ => ⟨S4x2048x11008, .f32⟩
  | .hbm, ⟨15, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  bcast_S_S4x2048x11008 : S_.BroadcastsInDim S4x2048x11008 (![] : Fin 0 → Fin S4x2048x11008.rank)
  dot_S4x2048x4096_S11008x4096_S4x2048x11008_2_1_01_0_n_n_wf : DotDims.WF S4x2048x4096 S11008x4096 S4x2048x11008 [2] [1] [0, 1] [0] [] []
  dot_S4x2048x4096_S16x4096_S4x2048x16_2_1_01_0_n_n_wf : DotDims.WF S4x2048x4096 S16x4096 S4x2048x16 [2] [1] [0, 1] [0] [] []
  dot_S4x2048x16_S11008x16_S4x2048x11008_2_1_01_0_n_n_wf : DotDims.WF S4x2048x16 S11008x16 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S11008x16_S4x2048x11008_2_1_01_0_n_n : DotDims S4x2048x16 S11008x16 S4x2048x11008 where
  lhsContracting := [2]
  rhsContracting := [1]
  lhsNonContracting := [0, 1]
  rhsNonContracting := [0]
  lhsBatch := []
  rhsBatch := []
  wf := dot_S4x2048x16_S11008x16_S4x2048x11008_2_1_01_0_n_n_wf

class Facts : Prop extends Facts₀ where

variable [Facts]
-- ==== Proof.Formula.lean ====
/-
  The value both programs compute at (b, s, o), as one function of the five arguments: the dequantised product
  (row (b, s) of x against row o of the integer weights read as real numbers, times scale o) plus the low-rank
  correction (row (b, s) of x against each of the 16 rows of the left factor, then against row o of the right factor)
  times a constant.
-/
import Idealize.ShloMosaic.PureOps.Ideal
import Idealize.ShloMosaic.Lib.ValueIdx

noncomputable section

namespace Cert.Formula

open Idealize.ShloMosaic Idealize.ShloMosaic.ValueIdx

def valueAt (one : EReal) (x0 : (⟨3, ![4, 2048, 4096]⟩ : Shape).Idx → EReal) (x1 : (⟨2, ![11008, 4096]⟩ : Shape).Idx → BitVec 32)
    (x2 : (⟨1, ![11008]⟩ : Shape).Idx → EReal) (x3 : (⟨2, ![16, 4096]⟩ : Shape).Idx → EReal)
    (x4 : (⟨2, ![11008, 16]⟩ : Shape).Idx → EReal) (b : Fin 4) (s : Fin 2048) (o : Fin 11008) : EReal :=
  (∑ k : Fin 4096, x0 (ix3 b s k) * (((x1 (ix2 o k)).toInt : ℝ) : EReal)) * x2 (ix1 o)
    + (∑ r : Fin 16, (∑ k : Fin 4096, x0 (ix3 b s k) * x3 (ix2 r k)) * x4 (ix2 o r)) * one

end Cert.Formula

end
-- ==== Proof.RefValue.lean ====
/-
  The reference at (b, s, o): its operations read one at a time — two contractions over the 4096 positions, one over the
  16 ranks, a scale broadcast along the last axis, a broadcast constant — give the common formula `valueAt`.
-/
import proofs.«127938_j33809982554585_2_alg».proof.Defs
import proofs.«127938_j33809982554585_2_alg».proof.Proof.Gen.ReferenceIdeal.Run
import proofs.«127938_j33809982554585_2_alg».proof.Proof.Gen.ReferenceIdeal.Read
import proofs.«127938_j33809982554585_2_alg».proof.Proof.Formula

noncomputable section

namespace Cert.ReferenceIdeal.RefValue

open Cert.ReferenceIdeal Cert.ReferenceIdeal.Read Idealize.ShloMosaic Idealize.ShloMosaic.ValueIdx Cert.Formula

theorem lidx1 (b : Fin 4) (s : Fin 2048) (o : Fin 11008) (k : Fin 4096) : lidx_main_v1 (ix3 b s o) k = ix3 b s k :=
  funext fun a => by match a with | ⟨0, _⟩ => rfl | ⟨1, _⟩ => rfl | ⟨2, _⟩ => rfl
theorem ridx1 (b : Fin 4) (s : Fin 2048) (o : Fin 11008) (k : Fin 4096) : ridx_main_v1 (ix3 b s o) k = ix2 o k :=
  funext fun a => by match a with | ⟨0, _⟩ => rfl | ⟨1, _⟩ => rfl
theorem idx23 (b : Fin 4) (s : Fin 2048) (o : Fin 11008) : idx_main_v2 (idx_main_v3 (ix3 b s o)) = ix1 o :=
  funext fun a => by match a with | ⟨0, _⟩ => rfl
theorem lidx6 (b : Fin 4) (s : Fin 2048) (o : Fin 11008) (r : Fin 16) : lidx_main_v6 (ix3 b s o) r = ix3 b s r :=
  funext fun a => by match a with | ⟨0, _⟩ => rfl | ⟨1, _⟩ => rfl | ⟨2, _⟩ => rfl
theorem ridx6 (b : Fin 4) (s : Fin 2048) (o : Fin 11008) (r : Fin 16) : ridx_main_v6 (ix3 b s o) r = ix2 o r :=
  funext fun a => by match a with | ⟨0, _⟩ => rfl | ⟨1, _⟩ => rfl
theorem lidx5 (b : Fin 4) (s : Fin 2048) (r : Fin 16) (k : Fin 4096) : lidx_main_v5 (ix3 b s r) k = ix3 b s k :=
  funext fun a => by match a with | ⟨0, _⟩ => rfl | ⟨1, _⟩ => rfl | ⟨2, _⟩ => rfl
theorem ridx5 (b : Fin 4) (s : Fin 2048) (r : Fin 16) (k : Fin 4096) : ridx_main_v5 (ix3 b s r) k = ix2 r k :=
  funext fun a => by match a with | ⟨0, _⟩ => rfl | ⟨1, _⟩ => rfl

/-- The reference's result at (b, s, o). -/
theorem ref_apply (x0 : (⟨S4x2048x4096, .f32⟩ : BufTy).Contents (Elt Ideal)) (x1 : (⟨S11008x4096, .i32⟩ : BufTy).Contents (Elt Ideal))
    (x2 : (⟨S11008, .f32⟩ : BufTy).Contents (Elt Ideal)) (x3 : (⟨S16x4096, .f32⟩ : BufTy).Contents (Elt Ideal))
    (x4 : (⟨S11008x16, .f32⟩ : BufTy).Contents (Elt Ideal)) (b : Fin 4) (s : Fin 2048) (o : Fin 11008) :
    val_main_v9 (F := Ideal) x0 x1 x2 x3 x4 (ix3 b s o)
      = valueAt (Ideal.ofBits .f32 0x3F800000#32) x0 x1 x2 x3 x4 b s o := by
  rw [val_main_v9_apply, val_main_v4_apply, val_main_v1_apply, val_main_v3_apply, val_main_v2_apply, val_main_v8_apply,
    val_main_v6_apply, val_main_v7_apply, val_main_cst_apply]
  simp only [val_main_v5_apply, val_main_v0_apply, lidx1, ridx1, idx23, lidx6, ridx6, lidx5, ridx5]
  rfl

end Cert.ReferenceIdeal.RefValue

end
-- ==== Proof.LibSumBlocks.lean ====
/- A sum over `m · n` consecutive positions, cut into `m` blocks of `n`: in any commutative additive monoid,
   `∑ x < m·n, f x = ∑ a < m, ∑ b < n, f (n·a + b)`; and the same cut applied twice, for a sum over `m · (n · p)` positions
   read as `m` groups of `n` blocks of `p`. What joins a sum taken chunk by chunk (a grid axis, then a loop, then the rows of
   one chunk) to one sum over all the rows. -/
import Mathlib.Algebra.BigOperators.Fin
import Mathlib.Logic.Equiv.Fin.Basic

namespace Cert.Voxel

open Finset

/-- A sum over `Fin (m * n)` is the sum over the `m` blocks of the sums over each block's `n` positions. -/
theorem sum_blocks {M : Type*} [AddCommMonoid M] (m n : ℕ) (f : ℕ → M) :
    ∑ x : Fin (m * n), f x.val = ∑ a : Fin m, ∑ b : Fin n, f (n * a.val + b.val) := by
  rw [← Equiv.sum_comp finProdFinEquiv (fun x : Fin (m * n) => f x.val), Fintype.sum_prod_type]
  refine Finset.sum_congr rfl fun a _ => Finset.sum_congr rfl fun b _ => ?_
  show f (finProdFinEquiv (a, b)).val = _
  rw [finProdFinEquiv_apply_val, Nat.add_comm]

/-- The same with the outer index a natural number below `m`. -/
theorem sum_blocks_range {M : Type*} [AddCommMonoid M] (m n : ℕ) (f : ℕ → M) :
    ∑ x : Fin (m * n), f x.val = ∑ a ∈ range m, ∑ b : Fin n, f (n * a + b.val) := by
  rw [sum_blocks, Fin.sum_univ_eq_sum_range (fun a => ∑ b : Fin n, f (n * a + b.val)) m]

/-- Cut twice: `m` groups of `n` blocks of `p` positions. -/
theorem sum_blocks₂ {M : Type*} [AddCommMonoid M] (m n p : ℕ) (f : ℕ → M) :
    ∑ x : Fin (m * (n * p)), f x.val
      = ∑ a ∈ range m, ∑ b ∈ range n, ∑ c : Fin p, f (n * p * a + (p * b + c.val)) := by
  rw [sum_blocks_range]
  refine Finset.sum_congr rfl fun a _ => ?_
  exact sum_blocks_range n p (fun x => f (n * p * a + x))

end Cert.Voxel
-- ==== Proof.BlockSums.lean ====
/-
  A dot product of two rows of 4096 entries taken in eight consecutive blocks of 512.

  For arrays `X` of shape [M, 4096] and `W` of shape [N, 4096] of extended reals, row `p` of `X` and row `q` of `W`:
  `blockDot k` is the sum of the products over positions 512·k … 512·k + 511, and `partialDot k` is a starting value
  `z` plus the blocks 0 … k added one after the other, in that order. Addition of extended reals is associative and
  commutative (no subtraction occurs), so after the last block the running value is `z` plus the dot product of the two
  whole rows (`partialDot_last`) — with no finiteness assumption on the entries.

  `outAt` is the value a dequantised product with a low-rank correction has at (p, q): the running value after the last
  block times a per-column scale, plus a rank-16 product times a constant.
-/
import Idealize.ShloMosaic.PureOps.Ideal
import Idealize.ShloMosaic.Lib.ValueIdx
import proofs.«127938_j33809982554585_2_alg».proof.Proof.LibSumBlocks

noncomputable section

namespace Cert.BlockSums

open Idealize.ShloMosaic Idealize.ShloMosaic.ValueIdx

variable {M N : ℕ}

/-- The products of row `p` of `X` and row `q` of `W` summed over block `k` of the contracted axis. -/
def blockDot (X : (⟨2, ![M, 4096]⟩ : Shape).Idx → EReal) (W : (⟨2, ![N, 4096]⟩ : Shape).Idx → EReal)
    (p : Fin M) (q : Fin N) (k : ℕ) (hk : k < 8) : EReal :=
  ∑ e : Fin 512, X (ix2 p ⟨512 * k + e.val, by have := e.isLt; omega⟩) * W (ix2 q ⟨512 * k + e.val, by have := e.isLt; omega⟩)

/-- The running value after block `k`: `z`, then block 0, then block 1, … added in that order. -/
def partialDot (z : EReal) (X : (⟨2, ![M, 4096]⟩ : Shape).Idx → EReal) (W : (⟨2, ![N, 4096]⟩ : Shape).Idx → EReal)
    (p : Fin M) (q : Fin N) : (k : ℕ) → k < 8 → EReal
  | 0, h => z + blockDot X W p q 0 h
  | k + 1, h => partialDot z X W p q k (Nat.lt_of_succ_lt h) + blockDot X W p q (k + 1) h

theorem partialDot_zero (z : EReal) (X : (⟨2, ![M, 4096]⟩ : Shape).Idx → EReal) (W : (⟨2, ![N, 4096]⟩ : Shape).Idx → EReal)
    (p : Fin M) (q : Fin N) (h : 0 < 8) : partialDot z X W p q 0 h = z + blockDot X W p q 0 h := rfl

theorem partialDot_succ (z : EReal) (X : (⟨2, ![M, 4096]⟩ : Shape).Idx → EReal) (W : (⟨2, ![N, 4096]⟩ : Shape).Idx → EReal)
    (p : Fin M) (q : Fin N) (k : ℕ) (h : k + 1 < 8) :
    partialDot z X W p q (k + 1) h = partialDot z X W p q k (Nat.lt_of_succ_lt h) + blockDot X W p q (k + 1) h := rfl

/-- The running value depends on the block number only, not on how it is written. -/
theorem partialDot_congr (z : EReal) (X : (⟨2, ![M, 4096]⟩ : Shape).Idx → EReal) (W : (⟨2, ![N, 4096]⟩ : Shape).Idx → EReal)
    (p : Fin M) (q : Fin N) {k k' : ℕ} (e : k = k') (h : k < 8) (h' : k' < 8) :
    partialDot z X W p q k h = partialDot z X W p q k' h' := by
  subst e; rfl

/-- The same for a block's sum. -/
theorem blockDot_congr (X : (⟨2, ![M, 4096]⟩ : Shape).Idx → EReal) (W : (⟨2, ![N, 4096]⟩ : Shape).Idx → EReal)
    (p : Fin M) (q : Fin N) {k k' : ℕ} (e : k = k') (h : k < 8) (h' : k' < 8) :
    blockDot X W p q k h = blockDot X W p q k' h' := by
  subst e; rfl

/-- The dot product of the two whole rows. -/
def rowDot (X : (⟨2, ![M, 4096]⟩ : Shape).Idx → EReal) (W : (⟨2, ![N, 4096]⟩ : Shape).Idx → EReal)
    (p : Fin M) (q : Fin N) : EReal :=
  ∑ d : Fin 4096, X (ix2 p d) * W (ix2 q d)

/-- The product at position `d` of the contracted axis, as a function of a natural number (zero past the end). -/
def term (X : (⟨2, ![M, 4096]⟩ : Shape).Idx → EReal) (W : (⟨2, ![N, 4096]⟩ : Shape).Idx → EReal)
    (p : Fin M) (q : Fin N) (d : ℕ) : EReal :=
  if h : d < 4096 then X (ix2 p ⟨d, h⟩) * W (ix2 q ⟨d, h⟩) else 0

theorem blockDot_eq (X : (⟨2, ![M, 4096]⟩ : Shape).Idx → EReal) (W : (⟨2, ![N, 4096]⟩ : Shape).Idx → EReal)
    (p : Fin M) (q : Fin N) (k : ℕ) (hk : k < 8) :
    blockDot X W p q k hk = ∑ b : Fin 512, term X W p q (512 * k + b.val) :=
  Finset.sum_congr rfl fun e _ => by
    have he : 512 * k + e.val < 4096 := by have := e.isLt; omega
    unfold term
    rw [dif_pos he]

theorem partialDot_eq (z : EReal) (X : (⟨2, ![M, 4096]⟩ : Shape).Idx → EReal) (W : (⟨2, ![N, 4096]⟩ : Shape).Idx → EReal)
    (p : Fin M) (q : Fin N) : ∀ (k : ℕ) (h : k < 8),
    partialDot z X W p q k h = z + ∑ a ∈ Finset.range (k + 1), ∑ b : Fin 512, term X W p q (512 * a + b.val)
  | 0, h => by rw [partialDot_zero, blockDot_eq, Finset.sum_range_one]
  | k + 1, h => by
    rw [partialDot_succ, partialDot_eq z X W p q k, blockDot_eq, Finset.sum_range_succ _ (k + 1), add_assoc]

theorem rowDot_eq (X : (⟨2, ![M, 4096]⟩ : Shape).Idx → EReal) (W : (⟨2, ![N, 4096]⟩ : Shape).Idx → EReal)
    (p : Fin M) (q : Fin N) : rowDot X W p q = ∑ x : Fin (8 * 512), term X W p q x.val :=
  Finset.sum_congr rfl fun d _ => by
    unfold term
    rw [dif_pos d.isLt]

/-- After the last block the running value is `z` plus the dot product of the whole rows. -/
theorem partialDot_last (z : EReal) (X : (⟨2, ![M, 4096]⟩ : Shape).Idx → EReal) (W : (⟨2, ![N, 4096]⟩ : Shape).Idx → EReal)
    (p : Fin M) (q : Fin N) (h : 7 < 8) : partialDot z X W p q 7 h = z + rowDot X W p q := by
  rw [partialDot_eq, rowDot_eq, Cert.Voxel.sum_blocks_range 8 512]

/-- The value at (p, q): the running value after the last block times column `q`'s scale, plus the rank-16 product of
    row `p` of `A` with row `q` of `B` times `one`. -/
def outAt (z one : EReal) (X : (⟨2, ![M, 4096]⟩ : Shape).Idx → EReal) (W : (⟨2, ![N, 4096]⟩ : Shape).Idx → EReal)
    (S : (⟨2, ![1, N]⟩ : Shape).Idx → EReal) (A : (⟨2, ![M, 16]⟩ : Shape).Idx → EReal) (B : (⟨2, ![N, 16]⟩ : Shape).Idx → EReal)
    (p : Fin M) (q : Fin N) : EReal :=
  partialDot z X W p q 7 (by norm_num) * S (ix2 (0 : Fin 1) q) + (∑ r : Fin 16, A (ix2 p r) * B (ix2 q r)) * one

/-- The whole [M, N] array of those values. -/
def outArr (z one : EReal) (X : (⟨2, ![M, 4096]⟩ : Shape).Idx → EReal) (W : (⟨2, ![N, 4096]⟩ : Shape).Idx → EReal)
    (S : (⟨2, ![1, N]⟩ : Shape).Idx → EReal) (A : (⟨2, ![M, 16]⟩ : Shape).Idx → EReal) (B : (⟨2, ![N, 16]⟩ : Shape).Idx → EReal) :
    (⟨2, ![M, N]⟩ : Shape).Idx → EReal :=
  fun i => outAt z one X W S A B ⟨(i 0).val, idx2_lt0 i⟩ ⟨(i 1).val, idx2_lt1 i⟩

theorem outArr_apply (z one : EReal) (X : (⟨2, ![M, 4096]⟩ : Shape).Idx → EReal) (W : (⟨2, ![N, 4096]⟩ : Shape).Idx → EReal)
    (S : (⟨2, ![1, N]⟩ : Shape).Idx → EReal) (A : (⟨2, ![M, 16]⟩ : Shape).Idx → EReal) (B : (⟨2, ![N, 16]⟩ : Shape).Idx → EReal)
    (p : Fin M) (q : Fin N) : outArr z one X W S A B (ix2 p q) = outAt z one X W S A B p q := rfl

end Cert.BlockSums

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.Body.lean ====
/-
  The kernel body's three stored values read at an index, on the extended reals.

  The body keeps a [1024, 1024] accumulator. The first store of a pass writes the zero splat; every point then stores
  accumulator + x·wᵀ, where x and w are [1024, 512] blocks and the product contracts their second axes (the body
  transposes w and multiplies into a zero splat, so entry (p, q) of the product is the sum over e of x(p, e)·w(q, e));
  the last point of a pass stores accumulator · (one scale row broadcast down the rows) + (a·bᵀ) · 1, where a and b are
  [1024, 16] blocks. Changes of float format are the identity on extended reals.
-/
import proofs.«127938_j33809982554585_2_alg».proof.Proof.Gen.KernelIdeal.Skeleton
import proofs.«127938_j33809982554585_2_alg».proof.Proof.LibPlainDot
import proofs.«127938_j33809982554585_2_alg».proof.Proof.BlockSums
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.LibPlainDot

/-- The value the accumulator is reset to, and the constant the low-rank product is multiplied by. -/
abbrev zeroV : EReal := Ideal.ofBits .f32 0x00000000#32
abbrev oneV : EReal := Ideal.ofBits .f32 0x3F800000#32

/-- The reset stores the zero word everywhere. -/
theorem reset_apply (y : S1024x1024.Idx) : k0_pay1 (F := Ideal) y = zeroV := by
  unfold k0_pay1
  simp only [shapeCast_self]
  rfl

/-- Entry (p, q) of a [1024, K] block times the transpose of a [1024, K] block, accumulated into the zero splat: the
    sum over the shared axis of the products of row p and row q. -/
theorem rowsDot_apply {K : ℕ} {φ₁ φ₂ : FTy} (l : FVec Ideal ⟨2, ![1024, K]⟩ φ₁) (r : FVec Ideal ⟨2, ![1024, K]⟩ φ₂)
    (h : (⟨2, ![1024, K]⟩ : Shape).Transposes [1, 0] ⟨2, ![K, 1024]⟩) (p q : Fin 1024) :
    FloatOps.matmul (DotDims.plain 1024 K 1024) none l (transpose ⟨2, ![K, 1024]⟩ [1, 0] r h)
        (constant ⟨2, ![1024, 1024]⟩ .f32 0x00000000#32) (ix2 p q)
      = ∑ e : Fin K, l (ix2 p e) * r (ix2 q e) := by
  rw [matmul_zero_plain, rowsTimes_apply]
  refine Finset.sum_congr rfl fun e _ => ?_
  rw [transpose_ix2_apply]

/-- A point's accumulation at (p, q): what the accumulator held plus row p of x times row q of w. -/
theorem accum_apply (v3 : Vec Ideal S1024x1024 .f32) (v4 v6 : Vec Ideal S1024x512 .bf16) (p q : Fin 1024) :
    k0_pay2 v3 v4 v6 (ix2 p q) = v3 (ix2 p q) + ∑ e : Fin 512, v4 (ix2 p e) * v6 (ix2 q e) := by
  unfold k0_pay2
  simp only [shapeCast_self]
  exact congrArg (v3 (ix2 p q) + ·) (rowsDot_apply v4 v6 _ p q)

/-- The last point's result at (p, q): the accumulator times column q's scale, plus row p of a times row q of b, times
    the constant. -/
theorem final_apply (v17 : Vec Ideal S1024x16 .f32) (v19 : Vec Ideal S1024x16 .bf16) (v25 : Vec Ideal S1024x1024 .f32)
    (v26 : Vec Ideal S1x1024 .f32) (p q : Fin 1024) :
    k0_pay3 v17 v19 v25 v26 (ix2 p q)
      = v25 (ix2 p q) * v26 (ix2 (0 : Fin 1) q) + (∑ r : Fin 16, v17 (ix2 p r) * v19 (ix2 q r)) * oneV := by
  unfold k0_pay3
  simp only [shapeCast_self]
  exact congrArg₂ (· + ·) (congrArg (v25 (ix2 p q) * ·) (broadcastTo_1b_ab_apply v26 _ p q))
    (congrArg (· * oneV) (rowsDot_apply v17 v19 _ p q))

/-- The accumulation at (a, b) when row a of the x block is positions 512·k … of row p of an array `Xg`, and row b of
    the w block the same positions of row q of `Wg`: what the accumulator held plus that block's dot product. -/
theorem accum_rows {M N : ℕ} (v3 : Vec Ideal S1024x1024 .f32) (v4 v6 : Vec Ideal S1024x512 .bf16)
    (Xg : (⟨2, ![M, 4096]⟩ : Shape).Idx → EReal) (Wg : (⟨2, ![N, 4096]⟩ : Shape).Idx → EReal) (p : Fin M) (q : Fin N)
    (k : ℕ) (hk : k < 8) (a b : Fin 1024)
    (hx : ∀ e : Fin 512, v4 (ix2 a e) = Xg (ix2 p ⟨512 * k + e.val, by have := e.isLt; omega⟩))
    (hw : ∀ e : Fin 512, v6 (ix2 b e) = Wg (ix2 q ⟨512 * k + e.val, by have := e.isLt; omega⟩)) :
    k0_pay2 v3 v4 v6 (ix2 a b) = v3 (ix2 a b) + Cert.BlockSums.blockDot Xg Wg p q k hk := by
  rw [accum_apply]
  refine congrArg (v3 (ix2 a b) + ·) (Finset.sum_congr rfl fun e _ => ?_)
  rw [hx e, hw e]

/-- The last point's result at (a, b) when the accumulator there is `accv`, the scale `sv`, and rows a and b of the
    rank-16 blocks are rows p and q of arrays `Ag` and `Bg`. -/
theorem final_rows {M N : ℕ} (v17 : Vec Ideal S1024x16 .f32) (v19 : Vec Ideal S1024x16 .bf16) (v25 : Vec Ideal S1024x1024 .f32)
    (v26 : Vec Ideal S1x1024 .f32) (a b : Fin 1024) (accv sv : EReal)
    (Ag : (⟨2, ![M, 16]⟩ : Shape).Idx → EReal) (Bg : (⟨2, ![N, 16]⟩ : Shape).Idx → EReal) (p : Fin M) (q : Fin N)
    (hacc : v25 (ix2 a b) = accv) (hs : v26 (ix2 (0 : Fin 1) b) = sv)
    (ha : ∀ r : Fin 16, v17 (ix2 a r) = Ag (ix2 p r)) (hb : ∀ r : Fin 16, v19 (ix2 b r) = Bg (ix2 q r)) :
    k0_pay3 v17 v19 v25 v26 (ix2 a b) = accv * sv + (∑ r : Fin 16, Ag (ix2 p r) * Bg (ix2 q r)) * oneV := by
  rw [final_apply, hacc, hs]
  refine congrArg (accv * sv + · * oneV) (Finset.sum_congr rfl fun r _ => ?_)
  rw [ha r, hb r]

end Cert.KernelIdeal.Body

end
-- ==== Proof.Pieces.lean ====
/-
  What one run of the kernel body leaves behind, case by case, as values.

  At the first point of a pass (contraction block 0) the body resets the accumulator and adds the point's product: the
  accumulator ends at (reset value) + x·wᵀ. At every other point it ends at (what the point before left) + x·wᵀ. At the
  last point of a pass (contraction block 7) the output block is, of that new accumulator, the scaled value plus the
  low-rank product. Each is the body's one covering store read back; every load reads a whole buffer.
-/
import proofs.«127938_j33809982554585_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First point of a pass: the accumulator ends at the reset value plus the point's product. -/
theorem acc_first (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i) (x0 : Vec F S1024x512 .bf16) (x1 : Vec F S1024x512 .bf16) (x2 : Vec F S1x1024 .f32) (x3 : Vec F S1024x16 .f32) (x4 : Vec F S1024x16 .bf16) :
    sout0_A_0 c i arg3 harg3 arg4 harg4 arg5 harg5 arg6 harg6 arg7 harg7 arg8 harg8 arg9 harg9 hc0 hc1 x0 x1 x2 x3 x4 = k0_pay2 (k0_pay1 (F := F)) x0 x1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x512) hz]

/-- A middle point: the accumulator ends at what it held plus the point's product. -/
theorem acc_middle (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i) (x0 : Vec F S1024x512 .bf16) (x1 : Vec F S1024x512 .bf16) (x2 : Vec F S1x1024 .f32) (x3 : Vec F S1024x16 .f32) (x4 : Vec F S1024x16 .bf16) (xs0 : Vec F S1024x1024 .f32) :
    sout0_B_0 c i arg3 harg3 arg4 harg4 arg5 harg5 arg6 harg6 arg7 harg7 arg8 harg8 arg9 harg9 hc0 hc1 x0 x1 x2 x3 x4 xs0 = k0_pay2 xs0 x0 x1 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  simp only [View.readAt_eq_ld, harg9.read_unread, harg3.read_unread, harg4.read_unread, View.ld_unit_zero (S := S1024x1024) hz,
    View.ld_unit_zero (S := S1024x512) hz]

/-- The last point of a pass: the accumulator as at a middle point, -/
theorem acc_last (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x512 .bf16) (x1 : Vec F S1024x512 .bf16) (x2 : Vec F S1x1024 .f32) (x3 : Vec F S1024x16 .f32) (x4 : Vec F S1024x16 .bf16) (xs0 : Vec F S1024x1024 .f32) :
    sout0_C_0 c i arg3 harg3 arg4 harg4 arg5 harg5 arg6 harg6 arg7 harg7 arg8 harg8 arg9 harg9 hc0 hc1 x0 x1 x2 x3 x4 xs0 = k0_pay2 xs0 x0 x1 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg9.read_unread, harg3.read_unread, harg4.read_unread, View.ld_unit_zero (S := S1024x1024) hz,
    View.ld_unit_zero (S := S1024x512) hz]

/-- and the output block: the final combination of that accumulator with the scale row and the two rank-16 blocks. -/
theorem out_last (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x512 .bf16) (x1 : Vec F S1024x512 .bf16) (x2 : Vec F S1x1024 .f32) (x3 : Vec F S1024x16 .f32) (x4 : Vec F S1024x16 .bf16) (xs0 : Vec F S1024x1024 .f32) :
    out0_C_5 c i arg3 harg3 arg4 harg4 arg5 harg5 arg6 harg6 arg7 harg7 arg8 harg8 arg9 harg9 hc0 hc1 x0 x1 x2 x3 x4 xs0 = k0_pay3 x3 x4 (k0_pay2 xs0 x0 x1) x2 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz, View.readCov_unit_zero (S := S1024x1024) _ hz]
  simp only [View.readAt_eq_ld, harg9.read_unread, harg3.read_unread, harg4.read_unread, harg5.read_unread, harg6.read_unread,
    harg7.read_unread, View.ld_unit_zero (S := S1024x1024) hz, View.ld_unit_zero (S := S1024x512) hz,
    View.ld_unit_zero (S := S1024x16) hz, View.ld_unit_zero (S := S1x1024) hz]

end Cert.KernelIdeal.Pieces

end
-- ==== Proof.Windows.lean ====
/-
  Where each window's block sits in its array.

  The grid has 8 × 11 × 8 points; point number n has row block n / 88, column block (n / 8) % 11 and contraction block
  n % 8 (the last axis varies fastest). The x window's block is rows 1024·(n / 88) …, columns 512·(n % 8) …; the weight
  window's block is rows 1024·((n / 8) % 11) …, the same columns; the scale window's block is columns
  1024·((n / 8) % 11) … of the one row; the two rank-16 windows' blocks are the row blocks 1024·(n / 88) … and
  1024·((n / 8) % 11) … with all 16 columns; the output's block is rows 1024·(n / 88) …, columns 1024·((n / 8) % 11) ….
-/
import proofs.«127938_j33809982554585_2_alg».proof.Proof.Gen.KernelIdeal.Frame
import Idealize.ShloMosaic.Lib.Pipeline.Value
import Idealize.ShloMosaic.Lib.ValueIdx

noncomputable section

namespace Cert.KernelIdeal.Windows

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The block indices of the six windows at point number `t`, decided over the grid. -/
theorem index_facts : ∀ t : Fin cfg0.N,
    win0_0.index t (0 : Fin 2) = t.val / 88 ∧ win0_0.index t (1 : Fin 2) = t.val % 8
    ∧ win0_1.index t (0 : Fin 2) = (t.val / 8) % 11 ∧ win0_1.index t (1 : Fin 2) = t.val % 8
    ∧ win0_2.index t (0 : Fin 2) = 0 ∧ win0_2.index t (1 : Fin 2) = (t.val / 8) % 11
    ∧ win0_3.index t (0 : Fin 2) = t.val / 88 ∧ win0_3.index t (1 : Fin 2) = 0
    ∧ win0_4.index t (0 : Fin 2) = (t.val / 8) % 11 ∧ win0_4.index t (1 : Fin 2) = 0
    ∧ win0_5.index t (0 : Fin 2) = t.val / 88 ∧ win0_5.index t (1 : Fin 2) = (t.val / 8) % 11 :=
  (by decide +kernel : ∀ t : Fin grid0.N, _)

theorem N_eq : cfg0.N = 704 := N_0

/-- Row `a` of row block `n / 88`, as a row of the 8192. -/
def rowOf (n : ℕ) (hn : n < 704) (a : Fin 1024) : Fin 8192 := ⟨1024 * (n / 88) + a.val, by have := a.isLt; omega⟩
/-- Column `b` of column block `(n / 8) % 11`, as a column of the 11264. -/
def colOf (n : ℕ) (b : Fin 1024) : Fin 11264 := ⟨1024 * ((n / 8) % 11) + b.val, by have := b.isLt; omega⟩
/-- Position `e` of contraction block `n % 8`, as a position of the 4096. -/
def posOf (n : ℕ) (e : Fin 512) : Fin 4096 := ⟨512 * (n % 8) + e.val, by have := e.isLt; omega⟩

/-- The x window's block at point `t`. -/
theorem xblk_apply (c : Dev nD) (t : Fin cfg0.N) (a : Fin 1024) (e : Fin 512) :
    (iblk m c 0 t : Vec F S1024x512 .bf16) (ix2 a e)
      = (V m c main_v1 : S8192x4096.Idx → F .bf16) (ix2 (rowOf t.val (N_eq ▸ t.isLt) a) (posOf t.val e)) := by
  obtain ⟨e0, e1, -⟩ := index_facts t
  unfold iblk
  rw [View.read_apply]
  show V m c main_v1 (((cfg0.win 0).blk t).view.emb (ix2 a e)) = V m c main_v1 _
  refine congrArg (V m c main_v1) (funext fun ax => Fin.ext ?_)
  match ax with
  | ⟨0, _⟩ => show win0_0.index t (0 : Fin 2) * 1024 + 1 * a.val = 1024 * (t.val / 88) + a.val; omega
  | ⟨1, _⟩ => show win0_0.index t (1 : Fin 2) * 512 + 1 * e.val = 512 * (t.val % 8) + e.val; omega

/-- The weight window's block at point `t`. -/
theorem wblk_apply (c : Dev nD) (t : Fin cfg0.N) (b : Fin 1024) (e : Fin 512) :
    (iblk m c 1 t : Vec F S1024x512 .bf16) (ix2 b e)
      = (V m c main_v3 : S11264x4096.Idx → F .bf16) (ix2 (colOf t.val b) (posOf t.val e)) := by
  obtain ⟨-, -, e0, e1, -⟩ := index_facts t
  unfold iblk
  rw [View.read_apply]
  show V m c main_v3 (((cfg0.win 1).blk t).view.emb (ix2 b e)) = V m c main_v3 _
  refine congrArg (V m c main_v3) (funext fun ax => Fin.ext ?_)
  match ax with
  | ⟨0, _⟩ => show win0_1.index t (0 : Fin 2) * 1024 + 1 * b.val = 1024 * ((t.val / 8) % 11) + b.val; omega
  | ⟨1, _⟩ => show win0_1.index t (1 : Fin 2) * 512 + 1 * e.val = 512 * (t.val % 8) + e.val; omega

/-- The scale window's block at point `t`. -/
theorem sblk_apply (c : Dev nD) (t : Fin cfg0.N) (u : Fin 1) (b : Fin 1024) :
    (iblk m c 2 t : Vec F S1x1024 .f32) (ix2 u b)
      = (V m c main_v5 : S1x11264.Idx → F .f32) (ix2 (0 : Fin 1) (colOf t.val b)) := by
  obtain ⟨-, -, -, -, e0, e1, -⟩ := index_facts t
  unfold iblk
  rw [View.read_apply]
  show V m c main_v5 (((cfg0.win 2).blk t).view.emb (ix2 u b)) = V m c main_v5 _
  refine congrArg (V m c main_v5) (funext fun ax => Fin.ext ?_)
  match ax with
  | ⟨0, _⟩ => show win0_2.index t (0 : Fin 2) * 1 + 1 * u.val = 0; omega
  | ⟨1, _⟩ => show win0_2.index t (1 : Fin 2) * 1024 + 1 * b.val = 1024 * ((t.val / 8) % 11) + b.val; omega

/-- The left rank-16 window's block at point `t`. -/
theorem ablk_apply (c : Dev nD) (t : Fin cfg0.N) (a : Fin 1024) (r : Fin 16) :
    (iblk m c 3 t : Vec F S1024x16 .f32) (ix2 a r)
      = (V m c main_v10 : S8192x16.Idx → F .f32) (ix2 (rowOf t.val (N_eq ▸ t.isLt) a) r) := by
  obtain ⟨-, -, -, -, -, -, e0, e1, -⟩ := index_facts t
  unfold iblk
  rw [View.read_apply]
  show V m c main_v10 (((cfg0.win 3).blk t).view.emb (ix2 a r)) = V m c main_v10 _
  refine congrArg (V m c main_v10) (funext fun ax => Fin.ext ?_)
  match ax with
  | ⟨0, _⟩ => show win0_3.index t (0 : Fin 2) * 1024 + 1 * a.val = 1024 * (t.val / 88) + a.val; omega
  | ⟨1, _⟩ => show win0_3.index t (1 : Fin 2) * 16 + 1 * r.val = r.val; omega

/-- The right rank-16 window's block at point `t`. -/
theorem bblk_apply (c : Dev nD) (t : Fin cfg0.N) (b : Fin 1024) (r : Fin 16) :
    (iblk m c 4 t : Vec F S1024x16 .bf16) (ix2 b r)
      = (V m c main_v7 : S11264x16.Idx → F .bf16) (ix2 (colOf t.val b) r) := by
  obtain ⟨-, -, -, -, -, -, -, -, e0, e1, -⟩ := index_facts t
  unfold iblk
  rw [View.read_apply]
  show V m c main_v7 (((cfg0.win 4).blk t).view.emb (ix2 b r)) = V m c main_v7 _
  refine congrArg (V m c main_v7) (funext fun ax => Fin.ext ?_)
  match ax with
  | ⟨0, _⟩ => show win0_4.index t (0 : Fin 2) * 1024 + 1 * b.val = 1024 * ((t.val / 8) % 11) + b.val; omega
  | ⟨1, _⟩ => show win0_4.index t (1 : Fin 2) * 16 + 1 * r.val = r.val; omega

end Cert.KernelIdeal.Windows

end
-- ==== Proof.Invariant.lean ====
/-
  The accumulator after every grid point, and the output block at the last point of every pass.

  Write n for a point's number, (n / 88, (n / 8) % 11, n % 8) for its row block, column block and contraction block.
  After point n the carried accumulator holds, at (a, b), the running dot product of row 1024·(n / 88) + a of x and row
  1024·((n / 8) % 11) + b of the weights over contraction blocks 0 … n % 8, started from the reset value: by induction on
  n, since a point with n % 8 = 0 resets and adds its block, and any other point adds its block to what point n - 1 — same
  row and column block, contraction block one less — left. At a point with n % 8 = 7 the output block is therefore the
  whole-array value `outAt` at those rows and columns.
-/
import proofs.«127938_j33809982554585_2_alg».proof.Proof.BlockSums
import proofs.«127938_j33809982554585_2_alg».proof.Proof.Body
import proofs.«127938_j33809982554585_2_alg».proof.Proof.Pieces
import proofs.«127938_j33809982554585_2_alg».proof.Proof.Windows

noncomputable section

namespace Cert.KernelIdeal.Invariant

open Cert.KernelIdeal Cert.KernelIdeal.Gen Idealize.ShloMosaic Idealize.ShloMosaic.TcCoe Idealize.ShloMosaic.ValueIdx Idealize.SL.Sem
open Cert.BlockSums Cert.KernelIdeal.Body Cert.KernelIdeal.Windows Cert.KernelIdeal.Pieces

/-! ## What each point leaves, over the blocks it was given (any float values) -/

section AnyValues
variable {F : FTy → Type} [FloatOps F]
variable (m : (ℓ : Loc nD τ sig) → Buf (Elt F) ℓ)

/-- A point that starts a pass leaves the reset value plus its product in the accumulator. -/
theorem acc_at_first (c : Dev nD) (t : Fin cfg0.N) (h0 : t.val % 8 = 0) :
    (outsAt0 m c t.val t.isLt).2 = k0_pay2 (k0_pay1 (F := F)) (iblk m c 0 t) (iblk m c 1 t) := by
  have h1 : ¬t.val % 8 = 7 := by omega
  rw [outsAt0_A m c t h0 h1]
  dsimp only
  exact acc_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- Any other point leaves what the point before left plus its product. -/
theorem acc_at_next (c : Dev nD) (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    dsimp only
    exact acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  · rw [outsAt0_B m c t h0 h1]
    dsimp only
    exact acc_middle c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

/-- The last point of a pass leaves, in the output's buffer, the final combination of its new accumulator. -/
theorem out_at_last (c : Dev nD) (t : Fin cfg0.N) (h1 : t.val % 8 = 7) :
    (outsAt0 m c t.val t.isLt).1
      = k0_pay3 (iblk m c 3 t) (iblk m c 4 t) (k0_pay2 (outsAt0 m c (t.val - 1) (Nat.lt_of_le_of_lt (Nat.sub_le _ _) t.isLt)).2 (iblk m c 0 t) (iblk m c 1 t)) (iblk m c 2 t) := by
  have h0 : ¬t.val % 8 = 0 := by omega
  rw [outsAt0_C m c t h0 h1]
  dsimp only
  exact out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

end AnyValues

/-! ## On the extended reals -/

variable (m : (ℓ : Loc nD τ sig) → Buf (Elt Ideal) ℓ)

/-- The five arrays the region reads, as it finds them. -/
abbrev X (c : Dev nD) : (⟨2, ![8192, 4096]⟩ : Shape).Idx → EReal := V m c main_v1
abbrev W (c : Dev nD) : (⟨2, ![11264, 4096]⟩ : Shape).Idx → EReal := V m c main_v3
abbrev S (c : Dev nD) : (⟨2, ![1, 11264]⟩ : Shape).Idx → EReal := V m c main_v5
abbrev A (c : Dev nD) : (⟨2, ![8192, 16]⟩ : Shape).Idx → EReal := V m c main_v10
abbrev B (c : Dev nD) : (⟨2, ![11264, 16]⟩ : Shape).Idx → EReal := V m c main_v7

theorem lt704 {n : ℕ} (h : n < cfg0.N) : n < 704 := N_eq ▸ h

/-- The accumulator after point `n`, at (a, b). -/
def accAt (c : Dev nD) (n : ℕ) (hn : n < 704) : (⟨2, ![1024, 1024]⟩ : Shape).Idx → EReal :=
  fun y => partialDot zeroV (X m c) (W m c) (rowOf n hn ⟨(y 0).val, idx2_lt0 y⟩) (colOf n ⟨(y 1).val, idx2_lt1 y⟩) (n % 8)
    (Nat.mod_lt _ (by norm_num))

theorem accAt_apply (c : Dev nD) (n : ℕ) (hn : n < 704) (a b : Fin 1024) :
    accAt m c n hn (ix2 a b) = partialDot zeroV (X m c) (W m c) (rowOf n hn a) (colOf n b) (n % 8) (Nat.mod_lt _ (by norm_num)) := rfl

/-- The first point of a pass. -/
theorem step_first (c : Dev nD) (t : Fin cfg0.N) (h0 : t.val % 8 = 0) :
    k0_pay2 (k0_pay1 (F := Ideal)) (iblk m c 0 t) (iblk m c 1 t) = accAt m c t.val (lt704 t.isLt) := by
  funext y
  obtain ⟨a, b, rfl⟩ : ∃ (a : Fin 1024) (b : Fin 1024), y = ix2 a b := ⟨y 0, y 1, eq_ix2 y⟩
  refine (accum_rows (k0_pay1 (F := Ideal)) (iblk m c 0 t) (iblk m c 1 t) (X m c) (W m c) (rowOf t.val (lt704 t.isLt) a)
    (colOf t.val b) (t.val % 8) (Nat.mod_lt _ (by norm_num)) a b (fun e => xblk_apply m c t a e) (fun e => wblk_apply m c t b e)).trans ?_
  rw [reset_apply, accAt_apply,
    partialDot_congr zeroV (X m c) (W m c) _ _ h0 (Nat.mod_lt _ (by norm_num)) (by norm_num), partialDot_zero,
    blockDot_congr (X m c) (W m c) _ _ h0 (Nat.mod_lt _ (by norm_num)) (by norm_num)]

/-- Any other point, over what the point before left. -/
theorem step_next (c : Dev nD) (t : Fin cfg0.N) (h0 : ¬t.val % 8 = 0) (hp : t.val - 1 < 704) :
    k0_pay2 (accAt m c (t.val - 1) hp) (iblk m c 0 t) (iblk m c 1 t) = accAt m c t.val (lt704 t.isLt) := by
  funext y
  obtain ⟨a, b, rfl⟩ : ∃ (a : Fin 1024) (b : Fin 1024), y = ix2 a b := ⟨y 0, y 1, eq_ix2 y⟩
  have hn : t.val < 704 := lt704 t.isLt
  refine (accum_rows (accAt m c (t.val - 1) hp) (iblk m c 0 t) (iblk m c 1 t) (X m c) (W m c) (rowOf t.val hn a)
    (colOf t.val b) (t.val % 8) (Nat.mod_lt _ (by norm_num)) a b (fun e => xblk_apply m c t a e) (fun e => wblk_apply m c t b e)).trans ?_
  have er : rowOf (t.val - 1) hp a = rowOf t.val hn a := Fin.ext (by show 1024 * ((t.val - 1) / 88) + a.val = 1024 * (t.val / 88) + a.val; omega)
  have ec : colOf (t.val - 1) b = colOf t.val b := Fin.ext (by show 1024 * (((t.val - 1) / 8) % 11) + b.val = 1024 * ((t.val / 8) % 11) + b.val; omega)
  have ek : t.val % 8 = (t.val - 1) % 8 + 1 := by omega
  rw [accAt_apply, accAt_apply, er, ec,
    partialDot_congr zeroV (X m c) (W m c) _ _ ek (Nat.mod_lt _ (by norm_num)) (by omega), partialDot_succ,
    blockDot_congr (X m c) (W m c) _ _ ek (Nat.mod_lt _ (by norm_num)) (by omega)]

/-- THE ACCUMULATOR after every point is the running dot product of the point's rows. -/
theorem acc_eq (c : Dev nD) : ∀ (n : ℕ) (h : n < cfg0.N), (outsAt0 m c n h).2 = accAt m c n (lt704 h)
  | 0, h => (acc_at_first m c ⟨0, h⟩ (Nat.zero_mod 8)).trans (step_first m c ⟨0, h⟩ (Nat.zero_mod 8))
  | n + 1, h => by
    by_cases h0 : (n + 1) % 8 = 0
    · exact (acc_at_first m c ⟨n + 1, h⟩ h0).trans (step_first m c ⟨n + 1, h⟩ h0)
    · refine (acc_at_next m c ⟨n + 1, h⟩ h0).trans ?_
      show k0_pay2 (outsAt0 m c n _).2 _ _ = _
      rw [acc_eq c n]
      exact step_next m c ⟨n + 1, h⟩ h0 _

/-- THE OUTPUT BLOCK at the last point of a pass, at (a, b): the whole-array value at the block's rows and columns. -/
theorem out_eq (c : Dev nD) (t : Fin cfg0.N) (h1 : t.val % 8 = 7) (a b : Fin 1024) :
    (outsAt0 m c t.val t.isLt).1 (ix2 a b)
      = outAt zeroV oneV (X m c) (W m c) (S m c) (A m c) (B m c) (rowOf t.val (lt704 t.isLt) a) (colOf t.val b) := by
  have h0 : ¬t.val % 8 = 0 := by omega
  rw [out_at_last m c t h1, ← acc_at_next m c t h0, acc_eq m c t.val t.isLt]
  refine (final_rows (iblk m c 3 t) (iblk m c 4 t) (accAt m c t.val (lt704 t.isLt)) (iblk m c 2 t) a b _ _ (A m c) (B m c)
    (rowOf t.val (lt704 t.isLt) a) (colOf t.val b) (accAt_apply m c t.val (lt704 t.isLt) a b) (sblk_apply m c t 0 b)
    (fun r => ablk_apply m c t a r) (fun r => bblk_apply m c t b r)).trans ?_
  unfold outAt
  rw [partialDot_congr zeroV (X m c) (W m c) _ _ h1 (Nat.mod_lt _ (by norm_num)) (by norm_num)]

end Cert.KernelIdeal.Invariant

end
-- ==== Proof.Result.lean ====
/-
  The kernel's result array, and the program's result.

  The output window's block at a point covers rows 1024·(n / 88) … and columns 1024·((n / 8) % 11) … of the [8192, 11264]
  array, and is written back at the last point of each pass only. What is written back there is the whole-array value
  `outArr` read through the block (the invariant), and the 8 × 11 blocks tile the array, so after the run the array is
  `outArr` of the five arrays the region read. The program then drops the last 256 columns and splits the rows into
  [4, 2048].
-/
import proofs.«127938_j33809982554585_2_alg».proof.Proof.Invariant
import Idealize.ShloMosaic.Lib.StableHlo.Run
import Idealize.ShloMosaic.Lib.Tactic

set_option maxRecDepth 16384

noncomputable section

namespace Cert.KernelIdeal.Result

open Cert.KernelIdeal Cert.KernelIdeal.Gen Idealize.ShloMosaic Idealize.ShloMosaic.TcCoe Idealize.ShloMosaic.Tactic
open Idealize.ShloMosaic.ValueIdx Idealize.SL.Sem Idealize.ShloMosaic.StableHlo
open Idealize.ShloMosaic.Pipeline (Dat)
open Cert.BlockSums Cert.KernelIdeal.Body Cert.KernelIdeal.Windows Cert.KernelIdeal.Invariant

variable (m : (ℓ : Loc nD τ sig) → Buf (Elt Ideal) ℓ) (ρ : Dev nD → PrngReg)

/-- The whole [8192, 11264] array of values. -/
abbrev finalArr (c : Dev nD) : S8192x11264.Idx → EReal :=
  outArr zeroV oneV (X m c) (W m c) (S m c) (A m c) (B m c)

/-- What a write-back writes is `finalArr` read through the point's block. -/
theorem flushed_eq (c : Dev nD) (t : Fin cfg0.N) (hf : (cfg0.win 5).flush t = true) :
    (dats m 0 c).flushed 5 t = ((cfg0.win 5).blk t).view.read (Elt Ideal) (finalArr m c) := by
  have h1 : t.val % 8 = 7 := (flush0_5 t).mp hf
  obtain ⟨-, -, -, -, -, -, -, -, -, -, e0, e1⟩ := index_facts t
  show (cfg0.win 5).cut (grid0.coords t) ((dats m 0 c).after 5 t) = _
  rw [after0_5]
  funext (y : S1024x1024.Idx)
  obtain ⟨a, b, rfl⟩ : ∃ (a : Fin 1024) (b : Fin 1024), y = ix2 a b := ⟨y 0, y 1, eq_ix2 y⟩
  show (outsAt0 m c t.val t.isLt).1 (ix2 a b) = finalArr m c (((cfg0.win 5).blk t).view.emb (ix2 a b))
  have he : ((cfg0.win 5).blk t).view.emb (ix2 a b) = ix2 (rowOf t.val (lt704 t.isLt) a) (colOf t.val b) :=
    funext fun ax => Fin.ext (by
      match ax with
      | ⟨0, _⟩ => show win0_5.index t (0 : Fin 2) * 1024 + 1 * a.val = 1024 * (t.val / 88) + a.val; omega
      | ⟨1, _⟩ => show win0_5.index t (1 : Fin 2) * 1024 + 1 * b.val = 1024 * ((t.val / 8) % 11) + b.val; omega)
  rw [he, out_eq m c t h1 a b]
  rfl

/-- An index of the array is in point `t`'s block iff each coordinate is in the block's range on its axis. -/
theorem mem_blk (t : Fin cfg0.N) (i : S8192x11264.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v11).slice (win0_5.rect t)).set ↔ _
  rw [View.set_slice_whole, Rect.mem_set_unit]
  exact Iff.rfl

/-- Every index is in the block some write-back writes: the last point of the pass of its row and column block. -/
theorem covered (i : S8192x11264.Idx) : ∃ t : Fin cfg0.N, (cfg0.win 5).flush t = true ∧ i ∈ ((cfg0.win 5).blk t).view.set := by
  have hi0 : (i 0).val < 8192 := idx2_lt0 i
  have hi1 : (i 1).val < 11264 := idx2_lt1 i
  have hN : cfg0.N = 704 := N_eq
  let t : Fin cfg0.N := ⟨((i 0).val / 1024 * 11 + (i 1).val / 1024) * 8 + 7, by omega⟩
  have ht : t.val = ((i 0).val / 1024 * 11 + (i 1).val / 1024) * 8 + 7 := rfl
  obtain ⟨-, -, -, -, -, -, -, -, -, -, e0, e1⟩ := index_facts t
  refine ⟨t, (flush0_5 t).mpr (by omega), ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- THE RESULT ARRAY after the run. -/
theorem final (c : Dev nD) : (dats m 0 c).arrAt 5 cfg0.N = finalArr m c :=
  (dats m 0 c).arrAt_eq_of_cover 5 (finalArr m c) (flushed_eq m c) covered

/-- The program's result: the result array without its last 256 columns, its rows split into [4, 2048]. -/
abbrev result (c : Dev nD) : S4x2048x11008.Idx → EReal :=
  shapeCast S4x2048x11008 (extractStridedSlice S8192x11008 ![0, 0] (finalArr m c) slices_S8192x11264_S8192x11008_0_0)
    shapeCasts_S8192x11008_S4x2048x11008

theorem tail_eq (c : Dev nD) :
    Pipeline.afterTail₀ cfgs (dats m) 0 (V0 m) [hostOps1] c main_v13 = result m c := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.devRef .tc main_v11)
      = finalArr m c := (Pipeline.withArrays_arr spec0 launch0.win.arr_inj c _ _ 5).trans (final m c)
  rw [hw]
  rfl

/-- The run, read: the program's result at `result`, the arguments unchanged. -/
theorem run : θ_run defs (onTc (τ := τ) (main (F := Ideal))) ⟨m, fun _ => 0, ρ⟩ fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.Operands.lean ====
/-
  The five arrays the region reads, as functions of the program's arguments.

  Before the region the host reshapes x from [4, 2048, 4096] to [8192, 4096] (row 2048·b + s is (b, s)), converts the
  integer weights to floats (the integer itself, as a real number), pads weights, scales and the right rank-16 factor
  with 256 zero rows or entries at the end, and multiplies the reshaped x by the transposed left rank-16 factor. Changes
  of float format are the identity on extended reals. Inside the unpadded range a padded array is the array it pads.
-/
import proofs.«127938_j33809982554585_2_alg».proof.Proof.Gen.KernelIdeal.Frame
import proofs.«127938_j33809982554585_2_alg».proof.Proof.Invariant
import proofs.«127938_j33809982554585_2_alg».proof.Proof.LibPlainDot
import Idealize.ShloMosaic.Lib.Pipeline.Value
import Idealize.ShloMosaic.Lib.ValueLayout
import Idealize.ShloMosaic.Lib.ValueIdx
import Idealize.ShloMosaic.Lib.KernelVsHost
import Idealize.ShloMosaic.Lib.StableHlo.Run
import Idealize.ShloMosaic.Lib.Tactic

set_option maxRecDepth 16384

noncomputable section

namespace Cert.KernelIdeal.Operands

open Cert.KernelIdeal Cert.KernelIdeal.Gen Idealize.ShloMosaic Idealize.ShloMosaic.TcCoe Idealize.ShloMosaic.Tactic
open Idealize.ShloMosaic.ValueIdx Idealize.SL.Sem Idealize.ShloMosaic.StableHlo Cert.LibPlainDot
open Cert.KernelIdeal.Invariant (X W S A B)

/-! ## The host operations before the region (any float values) -/

section AnyValues
variable {F : FTy → Type} [FloatOps F]
variable (m : (ℓ : Loc nD τ sig) → Buf (Elt F) ℓ)

/-- x reshaped to two axes. -/
abbrev xRows (c : Dev nD) : FVec F S8192x4096 .bf16 :=
  truncf .bf16 (shapeCast S8192x4096 (m ((c : Thread nD τ).loc main_arg0)) shapeCasts_S4x2048x4096_S8192x4096) bitsLt_bf16_f32

theorem V_x (c : Dev nD) : (V m c main_v1 : S8192x4096.Idx → F .bf16) = xRows m c := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem V_w (c : Dev nD) : (V m c main_v3 : S11264x4096.Idx → F .bf16)
    = pad S11264x4096 ![0, 0] ![256, 0] ![0, 0] (sitofp .bf16 (m ((c : Thread nD τ).loc main_arg1)))
        (sitofp .bf16 (constantI S_ 32 0#32)) pads_S11008x4096_S11264x4096_02560_000 h_S_ := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem V_s (c : Dev nD) : (V m c main_v5 : S1x11264.Idx → F .f32)
    = shapeCast S1x11264 (pad S11264 ![0] ![256] ![0] (m ((c : Thread nD τ).loc main_arg2))
        (sitofp .f32 (constantI S_ 32 0#32)) pads_S11008_S11264_02560 h_S_) shapeCasts_S11264_S1x11264 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem V_a (c : Dev nD) : (V m c main_v10 : S8192x16.Idx → F .f32)
    = Host.dotGeneral dot_S8192x4096_S4096x16_S8192x16_1_0_0_1_n_n none (xRows m c)
        (transpose S4096x16 [1, 0] (truncf .bf16 (m ((c : Thread nD τ).loc main_arg3)) bitsLt_bf16_f32)
          transposes_S16x4096_S4096x16_1_0) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem V_b (c : Dev nD) : (V m c main_v7 : S11264x16.Idx → F .bf16)
    = pad S11264x16 ![0, 0] ![256, 0] ![0, 0] (truncf .bf16 (m ((c : Thread nD τ).loc main_arg4)) bitsLt_bf16_f32)
        (sitofp .bf16 (constantI S_ 32 0#32)) pads_S11008x16_S11264x16_02560_000 h_S_ := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

end AnyValues

/-! ## Read at an index, on the extended reals -/

variable (m : (ℓ : Loc nD τ sig) → Buf (Elt Ideal) ℓ)

/-- The program's five arguments. -/
abbrev arg0 (c : Dev nD) : (⟨3, ![4, 2048, 4096]⟩ : Shape).Idx → EReal := m ((c : Thread nD τ).loc main_arg0)
abbrev arg1 (c : Dev nD) : (⟨2, ![11008, 4096]⟩ : Shape).Idx → BitVec 32 := m ((c : Thread nD τ).loc main_arg1)
abbrev arg2 (c : Dev nD) : (⟨1, ![11008]⟩ : Shape).Idx → EReal := m ((c : Thread nD τ).loc main_arg2)
abbrev arg3 (c : Dev nD) : (⟨2, ![16, 4096]⟩ : Shape).Idx → EReal := m ((c : Thread nD τ).loc main_arg3)
abbrev arg4 (c : Dev nD) : (⟨2, ![11008, 16]⟩ : Shape).Idx → EReal := m ((c : Thread nD τ).loc main_arg4)

/-- Row 2048·b + s of the reshaped x is x at (b, s). -/
theorem x_apply (c : Dev nD) (b : Fin 4) (s : Fin 2048) (d : Fin 4096) (p : Fin 8192) (hp : p.val = 2048 * b.val + s.val) :
    X m c (ix2 p d) = arg0 m c (ix3 b s d) := by
  refine (congrFun (V_x m c) (ix2 p d)).trans ?_
  show shapeCast S8192x4096 (m ((c : Thread nD τ).loc main_arg0)) shapeCasts_S4x2048x4096_S8192x4096 (ix2 p d) = _
  refine shapeCast_apply _ _ _ _ ?_
  show (S4x2048x4096.rowMajor (ix3 b s d)).val = (S8192x4096.rowMajor (ix2 p d)).val
  rw [Shape.rowMajor_val_three, Shape.rowMajor_val_two]
  show (b.val * 2048 + s.val) * 4096 + d.val = p.val * 4096 + d.val
  omega

/-- A row of the padded weights below 11008 is that row of the weights, each integer as a real number. -/
theorem w_apply (c : Dev nD) (o : Fin 11008) (d : Fin 4096) (q : Fin 11264) (hq : q.val = o.val) :
    W m c (ix2 q d) = (((arg1 m c (ix2 o d)).toInt : ℝ) : EReal) := by
  refine (congrFun (V_w m c) (ix2 q d)).trans ?_
  refine (pad_apply_of_inside _ _ _ _ _ _ _ (ix2 q d) (ix2 o d) fun ax => ?_).trans rfl
  match ax with
  | ⟨0, _⟩ => show q.val = 0 + o.val * (0 + 1); omega
  | ⟨1, _⟩ => show d.val = 0 + d.val * (0 + 1); omega

/-- An entry of the padded scale row below 11008 is that scale. -/
theorem s_apply (c : Dev nD) (o : Fin 11008) (q : Fin 11264) (hq : q.val = o.val) :
    S m c (ix2 (0 : Fin 1) q) = arg2 m c (ix1 o) := by
  refine (congrFun (V_s m c) (ix2 (0 : Fin 1) q)).trans ?_
  refine (shapeCast_a_1a_apply _ _ (0 : Fin 1) q).trans ?_
  refine pad_apply_of_inside _ _ _ _ _ _ _ (ix1 q) (ix1 o) fun ax => ?_
  match ax with
  | ⟨0, _⟩ => show q.val = 0 + o.val * (0 + 1); omega

/-- The left rank-16 operand: row p of the reshaped x times row r of the left factor. -/
theorem a_apply (c : Dev nD) (p : Fin 8192) (r : Fin 16) :
    A m c (ix2 p r) = ∑ d : Fin 4096, X m c (ix2 p d) * arg3 m c (ix2 r d) := by
  refine (congrFun (V_a m c) (ix2 p r)).trans ?_
  refine (congrFun (dotGeneral_plain none _ (xRows m c) (transpose S4096x16 [1, 0]
    (truncf .bf16 (m ((c : Thread nD τ).loc main_arg3)) bitsLt_bf16_f32) transposes_S16x4096_S4096x16_1_0)) (ix2 p r)).trans ?_
  rw [rowsTimes_apply]
  refine Finset.sum_congr rfl fun d _ => ?_
  rw [transpose_ix2_apply]
  exact congrArg (· * arg3 m c (ix2 r d)) (congrFun (V_x m c).symm (ix2 p d))

/-- A row of the padded right factor below 11008 is that row of the right factor. -/
theorem b_apply (c : Dev nD) (o : Fin 11008) (r : Fin 16) (q : Fin 11264) (hq : q.val = o.val) :
    B m c (ix2 q r) = arg4 m c (ix2 o r) := by
  refine (congrFun (V_b m c) (ix2 q r)).trans ?_
  refine (pad_apply_of_inside _ _ _ _ _ _ _ (ix2 q r) (ix2 o r) fun ax => ?_).trans rfl
  match ax with
  | ⟨0, _⟩ => show q.val = 0 + o.val * (0 + 1); omega
  | ⟨1, _⟩ => show r.val = 0 + r.val * (0 + 1); omega

end Cert.KernelIdeal.Operands

end
-- ==== Proof.Bridge.lean ====
/-
  The kernel program's result at (b, s, o) is the common formula of the five arguments.

  Entry (b, s, o) of the result is entry (2048·b + s, o) of the [8192, 11264] array (the reshape keeps the row-major
  position; the slice keeps the first 11008 columns). There the running dot product after the last block is the reset
  value, zero, plus the dot product of row 2048·b + s of the reshaped x — row (b, s) of x — with row o of the padded
  weights — row o of the weights, o being below 11008; the scale is scale o; the rank-16 rows are those of the host's
  product of x with the left factor and of the right factor. No finiteness is used: zero is the only value added, and
  nothing is cancelled or distributed.
-/
import proofs.«127938_j33809982554585_2_alg».proof.Proof.Result
import proofs.«127938_j33809982554585_2_alg».proof.Proof.Operands
import proofs.«127938_j33809982554585_2_alg».proof.Proof.Formula

noncomputable section

namespace Cert.KernelIdeal.Bridge

open Cert.KernelIdeal Cert.KernelIdeal.Gen Idealize.ShloMosaic Idealize.ShloMosaic.TcCoe Idealize.ShloMosaic.ValueIdx Idealize.SL.Sem
open Cert.BlockSums Cert.KernelIdeal.Body Cert.KernelIdeal.Invariant Cert.KernelIdeal.Result Cert.KernelIdeal.Operands Cert.Formula

variable (m : (ℓ : Loc nD τ sig) → Buf (Elt Ideal) ℓ)

/-- Entry (b, s, o) of the result is entry (2048·b + s, o) of the result array. -/
theorem result_at (c : Dev nD) (b : Fin 4) (s : Fin 2048) (o : Fin 11008) (p : Fin 8192) (q : Fin 11264)
    (hp : p.val = 2048 * b.val + s.val) (hq : q.val = o.val) :
    result m c (ix3 b s o) = finalArr m c (ix2 p q) := by
  refine (shapeCast_apply _ _ (ix3 b s o) (ix2 p o) ?_).trans ?_
  · show (S8192x11008.rowMajor (ix2 p o)).val = (S4x2048x11008.rowMajor (ix3 b s o)).val
    rw [Shape.rowMajor_val_two, Shape.rowMajor_val_three]
    show p.val * 11008 + o.val = (b.val * 2048 + s.val) * 11008 + o.val
    omega
  · refine extractStridedSlice_apply _ _ _ (ix2 p o) (ix2 p q) fun ax => ?_
    match ax with
    | ⟨0, _⟩ => show p.val = 0 + p.val; omega
    | ⟨1, _⟩ => show q.val = 0 + o.val; omega

/-- THE KERNEL PROGRAM'S RESULT at (b, s, o). -/
theorem result_apply (c : Dev nD) (b : Fin 4) (s : Fin 2048) (o : Fin 11008) :
    result m c (ix3 b s o) = valueAt oneV (arg0 m c) (arg1 m c) (arg2 m c) (arg3 m c) (arg4 m c) b s o := by
  obtain ⟨p, hp⟩ : ∃ p : Fin 8192, p.val = 2048 * b.val + s.val :=
    ⟨⟨2048 * b.val + s.val, by have := b.isLt; have := s.isLt; omega⟩, rfl⟩
  obtain ⟨q, hq⟩ : ∃ q : Fin 11264, q.val = o.val := ⟨⟨o.val, by have := o.isLt; omega⟩, rfl⟩
  have hX : ∀ d : Fin 4096, X m c (ix2 p d) = arg0 m c (ix3 b s d) := fun d => x_apply m c b s d p hp
  have h1 : rowDot (X m c) (W m c) p q = ∑ k : Fin 4096, arg0 m c (ix3 b s k) * (((arg1 m c (ix2 o k)).toInt : ℝ) : EReal) :=
    Finset.sum_congr rfl fun d _ => by rw [hX d, w_apply m c o d q hq]
  have h2 : ∑ r : Fin 16, A m c (ix2 p r) * B m c (ix2 q r)
      = ∑ r : Fin 16, (∑ k : Fin 4096, arg0 m c (ix3 b s k) * arg3 m c (ix2 r k)) * arg4 m c (ix2 o r) :=
    Finset.sum_congr rfl fun r _ => by
      rw [a_apply m c p r, b_apply m c o r q hq]
      exact congrArg (· * arg4 m c (ix2 o r)) (Finset.sum_congr rfl fun k _ => by rw [hX k])
  rw [result_at m c b s o p q hp hq]
  show outAt zeroV oneV (X m c) (W m c) (S m c) (A m c) (B m c) p q = _
  unfold outAt valueAt
  rw [partialDot_last, show zeroV = 0 from Ideal.ofBits_zero_f32, zero_add, s_apply m c o q hq, h1, h2]

end Cert.KernelIdeal.Bridge

end
-- ==== Proof.lean ====
/-
  An int8-weight dequantised matrix product with a rank-16 correction, tiled over a grid with an accumulator carried
  along the contraction axis, against its plain reference — equal on the extended reals.

  Both programs compute, at (b, s, o), (Σ_d x(b,s,d)·w(o,d)) · scale(o) + (Σ_r (Σ_d x(b,s,d)·a(r,d)) · bb(o,r)) · 1, the
  integer weights w read as real numbers. The kernel takes the first sum in eight blocks of 512 positions, added in
  order onto a zero, inside an 8 × 11 grid of [1024, 1024] output tiles over weights padded with zero rows; its result
  drops the padded columns. Sums of extended reals may be regrouped freely, so the two agree with no finiteness
  assumption: the precondition is not used by the value claim. The idealization rewrote nothing.
-/
import proofs.«127938_j33809982554585_2_alg».proof.Defs
import proofs.«127938_j33809982554585_2_alg».proof.Proof.Gen.Kernel
import proofs.«127938_j33809982554585_2_alg».proof.Proof.Gen.Kernel.Frame
import proofs.«127938_j33809982554585_2_alg».proof.Proof.Gen.KernelIdeal
import proofs.«127938_j33809982554585_2_alg».proof.Proof.Gen.KernelIdeal.Frame
import proofs.«127938_j33809982554585_2_alg».proof.Proof.Gen.ReferenceIdeal
import proofs.«127938_j33809982554585_2_alg».proof.Proof.Gen.ReferenceIdeal.Run
import proofs.«127938_j33809982554585_2_alg».proof.Proof.Gen.ReferenceIdeal.Read
import proofs.«127938_j33809982554585_2_alg».proof.Proof.Gen.Pre_finite_inputs
import proofs.«127938_j33809982554585_2_alg».proof.Proof.RefValue
import proofs.«127938_j33809982554585_2_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two results are one function of arguments that agree: both are the common formula at every (b, s, o). -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2.1, (hagree c).2.2.1, (hagree c).2.2.2.1,
    (hagree c).2.2.2.2]
  funext i
  obtain ⟨b, s, o, rfl⟩ : ∃ (b : Fin 4) (s : Fin 2048) (o : Fin 11008), i = ix3 b s o := ⟨i 0, i 1, i 2, eq_ix3 i⟩
  exact (Cert.ReferenceIdeal.RefValue.ref_apply _ _ _ _ _ b s o).trans
    (Cert.KernelIdeal.Bridge.result_apply m c b s o).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
